-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S1x64x1x1 : Shape := ⟨4, ![1, 64, 1, 1]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel
  bcast_S_S1x64x1x1 : S_.BroadcastsInDim S1x64x1x1 (![] : Fin 0 → Fin S1x64x1x1.rank)
  reducesTo_S1x64x1x1_S_d0_1_2_3 : S1x64x1x1.ReducesTo [0, 1, 2, 3] S_

variable [Facts]

def fn {F : FTy → Type} [FloatOps F] (main_arg0 : FVec F S8x64x256x256 .f32) (main_arg1 : FVec F S1x64x1x1 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S1x64x1x1 .f32 := Host.absf main_arg1
  let main_cst_0 : FVec F S_ .f32 := constant S_ .f32 0x7F800000#32
  let main_v5 : FVec F S1x64x1x1 .f32 := broadcastInDim S1x64x1x1 ![] bcast_S_S1x64x1x1 main_cst_0
  let main_v6 : IVec S1x64x1x1 1 := cmpf .olt main_v4 main_v5
  let main_c_1 : IVec S_ 1 := constantI S_ 1 1#1
  let main_v7 : IVec S_ 1 := (fun x v => Host.reduce IntOp.andi x v reducesTo_S1x64x1x1_S_d0_1_2_3 h_S_) main_v6 main_c_1
  let main_v8 : IVec S_ 1 := andi main_v3 main_v7
  main_v8
-- ==== Kernel.lean ====
abbrev S8x64x256x256 : Shape := ⟨4, ![8, 64, 256, 256]⟩
abbrev S1x64x1x1 : Shape := ⟨4, ![1, 64, 1, 1]⟩
abbrev S1x8x256x256 : Shape := ⟨4, ![1, 8, 256, 256]⟩
abbrev S1x8x1x1 : Shape := ⟨4, ![1, 8, 1, 1]⟩
abbrev S1x8x1x256 : Shape := ⟨4, ![1, 8, 1, 256]⟩
abbrev S1x8x257x256 : Shape := ⟨4, ![1, 8, 257, 256]⟩
abbrev S1x8x258x256 : Shape := ⟨4, ![1, 8, 258, 256]⟩
abbrev S1x8x258x1 : Shape := ⟨4, ![1, 8, 258, 1]⟩
abbrev S1x8x258x257 : Shape := ⟨4, ![1, 8, 258, 257]⟩
abbrev S1x8x258x258 : Shape := ⟨4, ![1, 8, 258, 258]⟩

abbrev nBuf : Space → Nat
  | .hbm => 3
  | .vmem => 6
  | .smem => 0
  | _ => 0

abbrev bufTy : (tb : Table) → Fin (tcTables nBuf tb) → BufTy
  | .hbm, ⟨0, _⟩ => ⟨S8x64x256x256, .f32⟩
  | .hbm, ⟨1, _⟩ => ⟨S1x64x1x1, .f32⟩
  | .hbm, ⟨2, _⟩ => ⟨S8x64x256x256, .f32⟩
  | .local _ .vmem, ⟨0, _⟩ => ⟨S1x8x256x256, .f32⟩
  | .local _ .vmem, ⟨1, _⟩ => ⟨S1x8x256x256, .f32⟩
  | .local _ .vmem, ⟨2, _⟩ => ⟨S1x8x1x1, .f32⟩
  | .local _ .vmem, ⟨3, _⟩ => ⟨S1x8x1x1, .f32⟩
  | .local _ .vmem, ⟨4, _⟩ => ⟨S1x8x256x256, .f32⟩
  | .local _ .vmem, ⟨5, _⟩ => ⟨S1x8x256x256, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x8x256x256_S1x8x256x256_0_0_0_0 : ∀ a, (![0, 0, 0, 0] : Fin 4 → Nat) a + S1x8x256x256.size a ≤ S1x8x256x256.size a
  h_S1x8x256x256 : 0 < S1x8x256x256.numel
  concatenates_S1x8x1x256_S1x8x256x256_S1x8x257x256_d2 : Shape.Concatenates [S1x8x1x256, S1x8x256x256] S1x8x257x256 2
  concatenates_S1x8x257x256_S1x8x1x256_S1x8x258x256_d2 : Shape.Concatenates [S1x8x257x256, S1x8x1x256] S1x8x258x256 2
  concatenates_S1x8x258x1_S1x8x258x256_S1x8x258x257_d3 : Shape.Concatenates [S1x8x258x1, S1x8x258x256] S1x8x258x257 3
  concatenates_S1x8x258x257_S1x8x258x1_S1x8x258x258_d3 : Shape.Concatenates [S1x8x258x257, S1x8x258x1] S1x8x258x258 3
  slices_S1x8x258x258_o0_0_0_0_S1x8x256x256 : S1x8x258x258.Slices ![0, 0, 0, 0] S1x8x256x256
  slices_S1x8x258x258_o0_0_0_1_S1x8x256x256 : S1x8x258x258.Slices ![0, 0, 0, 1] S1x8x256x256
  slices_S1x8x258x258_o0_0_0_2_S1x8x256x256 : S1x8x258x258.Slices ![0, 0, 0, 2] S1x8x256x256
  slices_S1x8x258x258_o0_0_1_0_S1x8x256x256 : S1x8x258x258.Slices ![0, 0, 1, 0] S1x8x256x256
  slices_S1x8x258x258_o0_0_1_1_S1x8x256x256 : S1x8x258x258.Slices ![0, 0, 1, 1] S1x8x256x256
  slices_S1x8x258x258_o0_0_1_2_S1x8x256x256 : S1x8x258x258.Slices ![0, 0, 1, 2] S1x8x256x256
  slices_S1x8x258x258_o0_0_2_0_S1x8x256x256 : S1x8x258x258.Slices ![0, 0, 2, 0] S1x8x256x256
  slices_S1x8x258x258_o0_0_2_1_S1x8x256x256 : S1x8x258x258.Slices ![0, 0, 2, 1] S1x8x256x256
  slices_S1x8x258x258_o0_0_2_2_S1x8x256x256 : S1x8x258x258.Slices ![0, 0, 2, 2] S1x8x256x256
  inb_S1x8x1x1_S1x8x1x1_0_0_0_0 : ∀ a, (![0, 0, 0, 0] : Fin 4 → Nat) a + S1x8x1x1.size a ≤ S1x8x1x1.size a
  h_S1x8x1x1 : 0 < S1x8x1x1.numel
  broadcasts_S1x8x1x1_S1x8x256x256 : S1x8x1x1.Broadcasts S1x8x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x256.size a ≤ S8x64x256x256.size a
  hwx0_0 : ∀ i : grid0.Coords, EltTy.bits .f32 = 32 ∨ (Rect.block (s := S8x64x256x256) S1x8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x1x1.size a ≤ S1x64x1x1.size a
  hwx0_1 : ∀ i : grid0.Coords, EltTy.bits .f32 = 32 ∨ (Rect.block (s := S1x64x1x1) S1x8x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x256x256.size a ≤ S8x64x256x256.size a
  hwx0_2 : ∀ i : grid0.Coords, EltTy.bits .f32 = 32 ∨ (Rect.block (s := S8x64x256x256) S1x8x256x256.size (cc0_transform_2 i) (hinb0_2 i)).WholeWords (EltTy.packing .f32)

variable [Facts₀]

abbrev win0_0 : Pipeline.Window sig grid0 :=
  Pipeline.Window.ofSpec (Memref.whole main_arg0) S1x8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S1x64x1x1 : Shape := ⟨4, ![1, 64, 1, 1]⟩
abbrev S_ : Shape := ⟨0, ![]⟩
abbrev S8x64x258x258 : Shape := ⟨4, ![8, 64, 258, 258]⟩

abbrev nBuf : Space → Nat
  | .hbm => 46
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S1x64x1x1, .f32⟩
  | .hbm, ⟨2, _⟩ => ⟨S_, .i32⟩
  | .hbm, ⟨3, _⟩ => ⟨S_, .f32⟩
  | .hbm, ⟨4, _⟩ => ⟨S8x64x258x258, .f32⟩
  | .hbm, ⟨5, _⟩ => ⟨S_, .f32⟩
  | .hbm, ⟨6, _⟩ => ⟨S8x64x256x256, .f32⟩
  | .hbm, ⟨7, _⟩ => ⟨S8x64x256x256, .f32⟩
  | .hbm, ⟨8, _⟩ => ⟨S8x64x256x256, .f32⟩
  | .hbm, ⟨9, _⟩ => ⟨S8x64x256x256, .f32⟩
  | .hbm, ⟨10, _⟩ => ⟨S8x64x256x256, .f32⟩
  | .hbm, ⟨11, _⟩ => ⟨S8x64x256x256, .f32⟩
  | .hbm, ⟨12, _⟩ => ⟨S8x64x256x256, .f32⟩
  | .hbm, ⟨13, _⟩ => ⟨S8x64x256x256, .f32⟩
  | .hbm, ⟨14, _⟩ => ⟨S8x64x256x256, .f32⟩
  | .hbm, ⟨15, _⟩ => ⟨S8x64x256x256, .f32⟩
  | .hbm, ⟨16, _⟩ => ⟨S8x64x256x256, .f32⟩
  | .hbm, ⟨17, _⟩ => ⟨S8x64x256x256, .f32⟩
  | .hbm, ⟨18, _⟩ => ⟨S8x64x256x256, .f32⟩
  | .hbm, ⟨19, _⟩ => ⟨S8x64x256x256, .f32⟩
  | .hbm, ⟨20, _⟩ => ⟨S8x64x256x256, .f32⟩
  | .hbm, ⟨21, _⟩ => ⟨S8x64x256x256, .f32⟩
  | .hbm, ⟨22, _⟩ => ⟨S8x64x256x256, .f32⟩
  | .hbm, ⟨23, _⟩ => ⟨S8x64x256x256, .f32⟩
  | .hbm, ⟨24, _⟩ => ⟨S8x64x256x256, .f32⟩
  | .hbm, ⟨25, _⟩ => ⟨S8x64x256x256, .f32⟩
  | .hbm, ⟨26, _⟩ => ⟨S8x64x256x256, .f32⟩
  | .hbm, ⟨27, _⟩ => ⟨S8x64x256x256, .f32⟩
  | .hbm, ⟨28, _⟩ => ⟨S8x64x256x256, .f32⟩
  | .hbm, ⟨29, _⟩ => ⟨S8x64x256x256, .f32⟩
  | .hbm, ⟨30, _⟩ => ⟨S8x64x256x256, .f32⟩
  | .hbm, ⟨31, _⟩ => ⟨S8x64x256x256, .f32⟩
  | .hbm, ⟨32, _⟩ => ⟨S8x64x256x256, .f32⟩
  | .hbm, ⟨33, _⟩ => ⟨S8x64x256x256, .f32⟩
  | .hbm, ⟨34, _⟩ => ⟨S8x64x256x256, .f32⟩
  | .hbm, ⟨35, _⟩ => ⟨S8x64x256x256, .f32⟩
  | .hbm, ⟨36, _⟩ => ⟨S8x64x256x256, .f32⟩
  | .hbm, ⟨37, _⟩ => ⟨S8x64x256x256, .f32⟩
  | .hbm, ⟨38, _⟩ => ⟨S8x64x256x256, .f32⟩
  | .hbm, ⟨39, _⟩ => ⟨S8x64x256x256, .f32⟩
  | .hbm, ⟨40, _⟩ => ⟨S8x64x256x256, .f32⟩
  | .hbm, ⟨41, _⟩ => ⟨S8x64x256x256, .f32⟩
  | .hbm, ⟨42, _⟩ => ⟨S8x64x256x256, .f32⟩
  | .hbm, ⟨43, _⟩ => ⟨S8x64x256x256, .f32⟩
  | .hbm, ⟨44, _⟩ => ⟨S8x64x256x256, .f32⟩
  | .hbm, ⟨45, _⟩ => ⟨S8x64x256x256, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩

abbrev nD : Nat := 1
abbrev τ : Topo := Topo.v7x

variable {F : FTy → Type} [FloatOps F]

class Facts₀ : Prop where
  pads_S8x64x256x256_S8x64x258x258_000_000_110_110 : S8x64x256x256.Pads (![0, 0, 1, 1] : Fin 4 → Nat) ![0, 0, 1, 1] ![0, 0, 0, 0] S8x64x258x258
  h_S_ : 0 < S_.numel
  bcast_S_S8x64x256x256 : S_.BroadcastsInDim S8x64x256x256 (![] : Fin 0 → Fin S8x64x256x256.rank)
  slices_S8x64x258x258_S8x64x256x256_0_0_0_0 : S8x64x258x258.Slices ![0, 0, 0, 0] S8x64x256x256
  slices_S8x64x258x258_S8x64x256x256_0_0_0_1 : S8x64x258x258.Slices ![0, 0, 0, 1] S8x64x256x256
  slices_S8x64x258x258_S8x64x256x256_0_0_0_2 : S8x64x258x258.Slices ![0, 0, 0, 2] S8x64x256x256
  slices_S8x64x258x258_S8x64x256x256_0_0_1_0 : S8x64x258x258.Slices ![0, 0, 1, 0] S8x64x256x256
  slices_S8x64x258x258_S8x64x256x256_0_0_1_1 : S8x64x258x258.Slices ![0, 0, 1, 1] S8x64x256x256
  slices_S8x64x258x258_S8x64x256x256_0_0_1_2 : S8x64x258x258.Slices ![0, 0, 1, 2] S8x64x256x256
  slices_S8x64x258x258_S8x64x256x256_0_0_2_0 : S8x64x258x258.Slices ![0, 0, 2, 0] S8x64x256x256
  slices_S8x64x258x258_S8x64x256x256_0_0_2_1 : S8x64x258x258.Slices ![0, 0, 2, 1] S8x64x256x256
  slices_S8x64x258x258_S8x64x256x256_0_0_2_2 : S8x64x258x258.Slices ![0, 0, 2, 2] S8x64x256x256
  bcast_S1x64x1x1_S8x64x256x256_0_1_2_3 : S1x64x1x1.BroadcastsInDim S8x64x256x256 (![0, 1, 2, 3] : Fin 4 → Fin S8x64x256x256.rank)

variable [Facts₀]

class Facts : Prop extends Facts₀ where

variable [Facts]
-- ==== Proof.LibPadStencil.lean ====
/-
  A rank-4 array [A, B, H, W] with one ring of a constant around its last two axes, and the sum of absolute
  differences between an entry and its nine ring neighbours.

  Two programs build the ringed array differently: one concatenates a constant row above and below and a constant
  column left and right (four two-piece concatenations), the other pads by one on each side of the last two axes.
  Read at an index, both are the same function `ringed`: the array's entry (r - 1, s - 1) when 1 ≤ r ≤ H and
  1 ≤ s ≤ W, the constant elsewhere. A unit-stride slice of the ringed array at offsets (dr, ds) then reads it at
  (dr + r, ds + s), which is how each of the nine neighbours of entry (r, s) is obtained.
-/
import Idealize.ShloMosaic.PureOps
import Idealize.ShloMosaic.Lib.ValueIdx
import Idealize.ShloMosaic.Lib.Pipeline.Value
import Idealize.ShloMosaic.Lib.KernelVsHost

noncomputable section

open Idealize.ShloMosaic Idealize.ShloMosaic.ValueIdx

namespace PadStencil

variable {α : Type}

/-! ## The ringed array -/

/-- The array `x` with one ring of `z` around its last two axes, read at ring coordinates `(r, s)`
    (`0 ≤ r < H + 2`, `0 ≤ s < W + 2`): entry `(r - 1, s - 1)` of plane `(a, b)` inside the ring, `z` on it. -/
def ringed {A B H W : Nat} (z : α) (x : (⟨4, ![A, B, H, W]⟩ : Shape).Idx → α) (a : Fin A) (b : Fin B) (r s : Nat) : α :=
  if h : (1 ≤ r ∧ r ≤ H) ∧ (1 ≤ s ∧ s ≤ W) then x (ix4 a b ⟨r - 1, by omega⟩ ⟨s - 1, by omega⟩) else z

/-- Two arrays that agree on a plane have the same ringed plane. -/
theorem ringed_congr {A B A' B' H W : Nat} (z : α) (x : (⟨4, ![A, B, H, W]⟩ : Shape).Idx → α)
    (x' : (⟨4, ![A', B', H, W]⟩ : Shape).Idx → α) (a : Fin A) (b : Fin B) (a' : Fin A') (b' : Fin B')
    (hx : ∀ (r : Fin H) (s : Fin W), x (ix4 a b r s) = x' (ix4 a' b' r s)) (r s : Nat) :
    ringed z x a b r s = ringed z x' a' b' r s := by
  unfold ringed
  split
  · exact hx _ _
  · rfl

/-! ## Two pieces side by side, read at an index -/

/-- Two pieces stacked along axis 2: a row below the first piece's extent is the first piece's, the others the
    second piece's, moved up by that extent. -/
theorem concat_rows_apply {A B n₁ n₂ n W : Nat} (hn : n = n₁ + n₂)
    (x₁ : (⟨4, ![A, B, n₁, W]⟩ : Shape).Idx → α) (x₂ : (⟨4, ![A, B, n₂, W]⟩ : Shape).Idx → α)
    (h : Shape.Concatenates [(⟨4, ![A, B, n₁, W]⟩ : Shape), ⟨4, ![A, B, n₂, W]⟩] ⟨4, ![A, B, n, W]⟩ 2)
    (a : Fin A) (b : Fin B) (r : Fin n) (s : Fin W) :
    concatenate ⟨4, ![A, B, n, W]⟩ 2 [⟨⟨4, ![A, B, n₁, W]⟩, x₁⟩, ⟨⟨4, ![A, B, n₂, W]⟩, x₂⟩] h (ix4 a b r s)
      = if hr : r.val < n₁ then x₁ (ix4 a b ⟨r.val, hr⟩ s) else x₂ (ix4 a b ⟨r.val - n₁, by omega⟩ s) := by
  split
  · next hr =>
    exact concatenate_pair_apply_left 2 x₁ x₂ h (ix4 a b r s) rfl (ix4 a b ⟨r.val, hr⟩ s) (fun d => by
      match d with
      | ⟨0, _⟩ => rfl
      | ⟨1, _⟩ => rfl
      | ⟨2, _⟩ => rfl
      | ⟨3, _⟩ => rfl)
  · next hr =>
    exact concatenate_pair_apply_right 2 x₁ x₂ h (ix4 a b r s) rfl rfl (ix4 a b ⟨r.val - n₁, by omega⟩ s)
      (fun d hd => by
        match d with
        | ⟨0, _⟩ => rfl
        | ⟨1, _⟩ => rfl
        | ⟨2, _⟩ => exact absurd rfl hd
        | ⟨3, _⟩ => rfl)
      (by show (r.val - n₁) + n₁ = r.val; omega)

/-- Two pieces side by side along axis 3: a column below the first piece's extent is the first piece's, the
    others the second piece's, moved left by that extent. -/
theorem concat_cols_apply {A B H n₁ n₂ n : Nat} (hn : n = n₁ + n₂)
    (x₁ : (⟨4, ![A, B, H, n₁]⟩ : Shape).Idx → α) (x₂ : (⟨4, ![A, B, H, n₂]⟩ : Shape).Idx → α)
    (h : Shape.Concatenates [(⟨4, ![A, B, H, n₁]⟩ : Shape), ⟨4, ![A, B, H, n₂]⟩] ⟨4, ![A, B, H, n]⟩ 3)
    (a : Fin A) (b : Fin B) (r : Fin H) (s : Fin n) :
    concatenate ⟨4, ![A, B, H, n]⟩ 3 [⟨⟨4, ![A, B, H, n₁]⟩, x₁⟩, ⟨⟨4, ![A, B, H, n₂]⟩, x₂⟩] h (ix4 a b r s)
      = if hs : s.val < n₁ then x₁ (ix4 a b r ⟨s.val, hs⟩) else x₂ (ix4 a b r ⟨s.val - n₁, by omega⟩) := by
  split
  · next hs =>
    exact concatenate_pair_apply_left 3 x₁ x₂ h (ix4 a b r s) rfl (ix4 a b r ⟨s.val, hs⟩) (fun d => by
      match d with
      | ⟨0, _⟩ => rfl
      | ⟨1, _⟩ => rfl
      | ⟨2, _⟩ => rfl
      | ⟨3, _⟩ => rfl)
  · next hs =>
    exact concatenate_pair_apply_right 3 x₁ x₂ h (ix4 a b r s) rfl rfl (ix4 a b r ⟨s.val - n₁, by omega⟩)
      (fun d hd => by
        match d with
        | ⟨0, _⟩ => rfl
        | ⟨1, _⟩ => rfl
        | ⟨2, _⟩ => rfl
        | ⟨3, _⟩ => exact absurd rfl hd)
      (by show (s.val - n₁) + n₁ = s.val; omega)

/-! ## The ring by four concatenations -/

/-- A constant row above the array, a constant row below, a constant column left, a constant column right, in
    that order: the result read at `(r, s)` is the ringed array there. -/
theorem ring_concat_apply {A B H H₁ H₂ W W₁ W₂ : Nat} (hH₁ : H₁ = 1 + H) (hH₂ : H₂ = H₁ + 1) (hW₁ : W₁ = 1 + W)
    (hW₂ : W₂ = W₁ + 1) (z : α) (x : (⟨4, ![A, B, H, W]⟩ : Shape).Idx → α)
    (c₁ : Shape.Concatenates [(⟨4, ![A, B, 1, W]⟩ : Shape), ⟨4, ![A, B, H, W]⟩] ⟨4, ![A, B, H₁, W]⟩ 2)
    (c₂ : Shape.Concatenates [(⟨4, ![A, B, H₁, W]⟩ : Shape), ⟨4, ![A, B, 1, W]⟩] ⟨4, ![A, B, H₂, W]⟩ 2)
    (c₃ : Shape.Concatenates [(⟨4, ![A, B, H₂, 1]⟩ : Shape), ⟨4, ![A, B, H₂, W]⟩] ⟨4, ![A, B, H₂, W₁]⟩ 3)
    (c₄ : Shape.Concatenates [(⟨4, ![A, B, H₂, W₁]⟩ : Shape), ⟨4, ![A, B, H₂, 1]⟩] ⟨4, ![A, B, H₂, W₂]⟩ 3)
    (a : Fin A) (b : Fin B) (r : Fin H₂) (s : Fin W₂) :
    concatenate ⟨4, ![A, B, H₂, W₂]⟩ 3
      [⟨⟨4, ![A, B, H₂, W₁]⟩, concatenate ⟨4, ![A, B, H₂, W₁]⟩ 3
        [⟨⟨4, ![A, B, H₂, 1]⟩, broadcast ⟨4, ![A, B, H₂, 1]⟩ z⟩,
         ⟨⟨4, ![A, B, H₂, W]⟩, concatenate ⟨4, ![A, B, H₂, W]⟩ 2
          [⟨⟨4, ![A, B, H₁, W]⟩, concatenate ⟨4, ![A, B, H₁, W]⟩ 2
            [⟨⟨4, ![A, B, 1, W]⟩, broadcast ⟨4, ![A, B, 1, W]⟩ z⟩, ⟨⟨4, ![A, B, H, W]⟩, x⟩] c₁⟩,
           ⟨⟨4, ![A, B, 1, W]⟩, broadcast ⟨4, ![A, B, 1, W]⟩ z⟩] c₂⟩] c₃⟩,
       ⟨⟨4, ![A, B, H₂, 1]⟩, broadcast ⟨4, ![A, B, H₂, 1]⟩ z⟩] c₄ (ix4 a b r s)
      = ringed z x a b r.val s.val := by
  have hr := r.isLt
  have hs := s.isLt
  unfold ringed
  refine (concat_cols_apply hW₂ _ _ c₄ a b r s).trans ?_
  by_cases hs₁ : s.val < W₁
  · rw [dif_pos hs₁]
    refine (concat_cols_apply hW₁ _ _ c₃ a b r ⟨s.val, hs₁⟩).trans ?_
    by_cases hs₀ : s.val < 1
    · rw [dif_pos hs₀, dif_neg (by omega)]; rfl
    · rw [dif_neg hs₀]
      refine (concat_rows_apply hH₂ _ _ c₂ a b r _).trans ?_
      by_cases hr₁ : r.val < H₁
      · rw [dif_pos hr₁]
        refine (concat_rows_apply hH₁ _ _ c₁ a b ⟨r.val, hr₁⟩ _).trans ?_
        by_cases hr₀ : r.val < 1
        · rw [dif_pos hr₀, dif_neg (by omega)]; rfl
        · rw [dif_neg hr₀, dif_pos (by omega)]
      · rw [dif_neg hr₁, dif_neg (by omega)]; rfl
  · rw [dif_neg hs₁, dif_neg (by omega)]; rfl

/-! ## The ring by padding -/

/-- A pad by one on each side of the last two axes, nothing between the entries, read at `(r, s)` is the
    ringed array there, the ring holding the padding value. -/
theorem ring_pad_apply {A B H W H₂ W₂ : Nat} (hH : H₂ = H + 2) (hW : W₂ = W + 2)
    (x : (⟨4, ![A, B, H, W]⟩ : Shape).Idx → α) {u : Shape} (v : u.Idx → α)
    (hp : (⟨4, ![A, B, H, W]⟩ : Shape).Pads ![0, 0, 1, 1] ![0, 0, 1, 1] ![0, 0, 0, 0] ⟨4, ![A, B, H₂, W₂]⟩)
    (hu : 0 < u.numel) (a : Fin A) (b : Fin B) (r : Fin H₂) (s : Fin W₂) :
    pad ⟨4, ![A, B, H₂, W₂]⟩ ![0, 0, 1, 1] ![0, 0, 1, 1] ![0, 0, 0, 0] x v hp hu (ix4 a b r s)
      = ringed (v (Shape.Idx.first hu)) x a b r.val s.val := by
  have hr := r.isLt
  have hs := s.isLt
  unfold ringed
  split
  · next h =>
    exact pad_apply_of_inside _ _ _ x v hp hu (ix4 a b r s) _ (fun d => by
      match d with
      | ⟨0, _⟩ => show a.val = 0 + a.val * (0 + 1); omega
      | ⟨1, _⟩ => show b.val = 0 + b.val * (0 + 1); omega
      | ⟨2, _⟩ => show r.val = 1 + (r.val - 1) * (0 + 1); omega
      | ⟨3, _⟩ => show s.val = 1 + (s.val - 1) * (0 + 1); omega)
  · next h =>
    by_cases hr' : 1 ≤ r.val ∧ r.val ≤ H
    · refine pad_apply_of_not_inside _ _ _ x v hp hu (ix4 a b r s) 3 ?_
      show ¬(1 ≤ s.val ∧ (s.val - 1) % (0 + 1) = 0 ∧ (s.val - 1) / (0 + 1) < W)
      rw [Nat.zero_add, Nat.div_one]
      intro h'
      exact h ⟨hr', h'.1, by omega⟩
    · refine pad_apply_of_not_inside _ _ _ x v hp hu (ix4 a b r s) 2 ?_
      show ¬(1 ≤ r.val ∧ (r.val - 1) % (0 + 1) = 0 ∧ (r.val - 1) / (0 + 1) < H)
      rw [Nat.zero_add, Nat.div_one]
      intro h'
      exact hr' ⟨h'.1, by omega⟩

/-! ## A shifted window of the ringed array -/

/-- The unit-stride slice at offsets `(0, 0, dr, ds)`, read at `(r, s)`, is the operand at `(dr + r, ds + s)`. -/
theorem slice_apply {A B H₂ W₂ H W : Nat} (dr ds : Nat) (y : (⟨4, ![A, B, H₂, W₂]⟩ : Shape).Idx → α)
    (h : (⟨4, ![A, B, H₂, W₂]⟩ : Shape).Slices ![0, 0, dr, ds] ⟨4, ![A, B, H, W]⟩)
    (a : Fin A) (b : Fin B) (r : Fin H) (s : Fin W) (hr : dr + r.val < H₂) (hs : ds + s.val < W₂) :
    extractStridedSlice ⟨4, ![A, B, H, W]⟩ ![0, 0, dr, ds] y h (ix4 a b r s)
      = y (ix4 a b ⟨dr + r.val, hr⟩ ⟨ds + s.val, hs⟩) :=
  extractStridedSlice_apply _ y h (ix4 a b r s) _ (fun d => by
    match d with
    | ⟨0, _⟩ => show a.val = 0 + a.val; omega
    | ⟨1, _⟩ => show b.val = 0 + b.val; omega
    | ⟨2, _⟩ => rfl
    | ⟨3, _⟩ => rfl)

/-! ## The sum of the nine absolute differences -/

/-- Starting from `z₀`, the absolute differences between `c` and its nine neighbours `n dr ds`
    (`dr, ds = 0, 1, 2`) added one after the other, row by row. -/
def absDiffSum {F : FTy → Type} [FloatOps F] (z₀ c : F .f32) (n : Nat → Nat → F .f32) : F .f32 :=
  FloatOps.addf (FloatOps.addf (FloatOps.addf (FloatOps.addf (FloatOps.addf (FloatOps.addf (FloatOps.addf
    (FloatOps.addf (FloatOps.addf z₀
      (FloatOps.absf (FloatOps.subf c (n 0 0)))) (FloatOps.absf (FloatOps.subf c (n 0 1))))
      (FloatOps.absf (FloatOps.subf c (n 0 2)))) (FloatOps.absf (FloatOps.subf c (n 1 0))))
      (FloatOps.absf (FloatOps.subf c (n 1 1)))) (FloatOps.absf (FloatOps.subf c (n 1 2))))
      (FloatOps.absf (FloatOps.subf c (n 2 0)))) (FloatOps.absf (FloatOps.subf c (n 2 1))))
      (FloatOps.absf (FloatOps.subf c (n 2 2)))

/-! ## The whole map -/

/-- Entry `(a, b, r, s)` of the result: the entry of `x` plus the scale of its channel `b` times the sum of
    the absolute differences between the entry and its nine neighbours in the plane ringed with `z`. -/
def stencilAt {F : FTy → Type} [FloatOps F] {A B H W : Nat} (z₀ z : F .f32)
    (x : (⟨4, ![A, B, H, W]⟩ : Shape).Idx → F .f32) (al : (⟨4, ![1, B, 1, 1]⟩ : Shape).Idx → F .f32)
    (a : Fin A) (b : Fin B) (r : Fin H) (s : Fin W) : F .f32 :=
  FloatOps.addf (x (ix4 a b r s))
    (FloatOps.mulf (al (ix4 0 b 0 0))
      (absDiffSum z₀ (x (ix4 a b r s)) (fun dr ds => ringed z x a b (dr + r.val) (ds + s.val))))

/-- The result array, index by index. -/
def stencilMap {F : FTy → Type} [FloatOps F] {A B H W : Nat} (z₀ z : F .f32)
    (x : (⟨4, ![A, B, H, W]⟩ : Shape).Idx → F .f32) (al : (⟨4, ![1, B, 1, 1]⟩ : Shape).Idx → F .f32) :
    (⟨4, ![A, B, H, W]⟩ : Shape).Idx → F .f32 :=
  fun i => stencilAt z₀ z x al (i 0) (i 1) (i 2) (i 3)

theorem stencilMap_ix4 {F : FTy → Type} [FloatOps F] {A B H W : Nat} (z₀ z : F .f32)
    (x : (⟨4, ![A, B, H, W]⟩ : Shape).Idx → F .f32) (al : (⟨4, ![1, B, 1, 1]⟩ : Shape).Idx → F .f32)
    (a : Fin A) (b : Fin B) (r : Fin H) (s : Fin W) :
    stencilMap z₀ z x al (ix4 a b r s) = stencilAt z₀ z x al a b r s := rfl

end PadStencil

end
-- ==== Proof.KernelBlock.lean ====
/-
  What one grid point of the kernel computes, entry by entry.

  The body loads a block of eight whole planes of `x` and the eight matching entries of `alpha`. It rings each
  plane with zeros (a row above and below, a column left and right), takes the nine windows of the ringed block at
  offsets (dr, ds), dr, ds = 0, 1, 2, and adds up the absolute differences between the block and each window; the
  stored value is the block plus `alpha` times that sum. Read at entry (b, r, s) this is
  `x + alpha b * Σ |x - ringed x (dr + r, ds + s)|`, the sum taken in reading order from the zero word.
-/
import proofs.«177111_j12163347382417_2_alg».proof.Proof.Gen.KernelIdeal.Value
import proofs.«177111_j12163347382417_2_alg».proof.Proof.LibPadStencil

noncomputable section

open Idealize.ShloMosaic Idealize.ShloMosaic.ValueIdx PadStencil

namespace Cert.KernelIdeal.Block

open Cert.KernelIdeal Cert.KernelIdeal.Gen Cert.KernelIdeal.Value

variable {F : FTy → Type} [FloatOps F]

/-- The sum of absolute differences the body forms from a loaded block `v0`, at entry `(a, b, r, s)`: the nine
    neighbours are the block ringed with the converted integer zero, read at `(dr + r, ds + s)`. -/
theorem pay2_apply (v0 : Vec F S1x8x256x256 .f32) (a : Fin 1) (b : Fin 8) (r s : Fin 256) :
    k0_pay2 v0 (ix4 a b r s)
      = absDiffSum (Scalar.ofBits .f32 0x00000000#32) (v0 (ix4 a b r s))
          (fun dr ds => ringed (Scalar.sitofp .f32 0#32) v0 a b (dr + r.val) (ds + s.val)) := by
  have hr := r.isLt
  have hs := s.isLt
  have nb : ∀ (dr ds : Nat) (hdr : dr ≤ 2) (hds : ds ≤ 2)
      (h : S1x8x258x258.Slices ![0, 0, dr, ds] S1x8x256x256)
      (c₁ : Shape.Concatenates [S1x8x1x256, S1x8x256x256] S1x8x257x256 2)
      (c₂ : Shape.Concatenates [S1x8x257x256, S1x8x1x256] S1x8x258x256 2)
      (c₃ : Shape.Concatenates [S1x8x258x1, S1x8x258x256] S1x8x258x257 3)
      (c₄ : Shape.Concatenates [S1x8x258x257, S1x8x258x1] S1x8x258x258 3),
      extractStridedSlice S1x8x256x256 ![0, 0, dr, ds]
        (concatenate S1x8x258x258 3
          [⟨S1x8x258x257, concatenate S1x8x258x257 3
            [⟨S1x8x258x1, broadcast S1x8x258x1 (Scalar.sitofp (F := F) .f32 0#32)⟩,
             ⟨S1x8x258x256, concatenate S1x8x258x256 2
              [⟨S1x8x257x256, concatenate S1x8x257x256 2
                [⟨S1x8x1x256, broadcast S1x8x1x256 (Scalar.sitofp (F := F) .f32 0#32)⟩, ⟨S1x8x256x256, v0⟩] c₁⟩,
               ⟨S1x8x1x256, broadcast S1x8x1x256 (Scalar.sitofp (F := F) .f32 0#32)⟩] c₂⟩] c₃⟩,
           ⟨S1x8x258x1, broadcast S1x8x258x1 (Scalar.sitofp (F := F) .f32 0#32)⟩] c₄) h (ix4 a b r s)
        = ringed (Scalar.sitofp (F := F) .f32 0#32) v0 a b (dr + r.val) (ds + s.val) := by
    intro dr ds hdr hds h c₁ c₂ c₃ c₄
    refine (slice_apply dr ds _ h a b r s (by omega) (by omega)).trans ?_
    exact ring_concat_apply (A := 1) (B := 8) (H := 256) (W := 256) rfl rfl rfl rfl _ v0 c₁ c₂ c₃ c₄ a b _ _
  unfold k0_pay2 absDiffSum
  dsimp only [addf, subf, absf]
  rw [nb 0 0, nb 0 1, nb 0 2, nb 1 0, nb 1 1, nb 1 2, nb 2 0, nb 2 1, nb 2 2]
  all_goals first | rfl | omega

/-- One point's stored block is the matching block of the whole map: if the loaded block `P0` holds planes
    `q₁ * 8 … q₁ * 8 + 7` of batch entry `q₀` of `X`, and `P1` the matching scales of `Al`, then the block's entry
    `y` is the map's entry at the array index `i` over it. -/
theorem point_eq (X : S8x64x256x256.Idx → F .f32) (Al : S1x64x1x1.Idx → F .f32)
    (P0 : Vec F S1x8x256x256 .f32) (P1 : Vec F S1x8x1x1 .f32) (q₀ q₁ : Nat)
    (h0 : ∀ (y' : S1x8x256x256.Idx) (i' : S8x64x256x256.Idx), (i' 0).val = q₀ → (i' 1).val = q₁ * 8 + (y' 1).val →
      (i' 2).val = (y' 2).val → (i' 3).val = (y' 3).val → P0 y' = X i')
    (h1 : ∀ (y' : S1x8x1x1.Idx) (i' : S1x64x1x1.Idx), (i' 1).val = q₁ * 8 + (y' 1).val → P1 y' = Al i')
    (y : S1x8x256x256.Idx) (i : S8x64x256x256.Idx) (hi0 : (i 0).val = q₀) (hi1 : (i 1).val = q₁ * 8 + (y 1).val)
    (hi2 : (i 2).val = (y 2).val) (hi3 : (i 3).val = (y 3).val) :
    E2 P0 P1 y = stencilMap (Scalar.ofBits .f32 0x00000000#32) (Scalar.sitofp .f32 0#32) X Al i := by
  obtain ⟨a, b, r, s, rfl⟩ : ∃ (a : Fin 1) (b : Fin 8) (r s : Fin 256), y = ix4 a b r s :=
    ⟨y 0, y 1, y 2, y 3, eq_ix4 y⟩
  obtain ⟨a', b', r', s', rfl⟩ : ∃ (a' : Fin 8) (b' : Fin 64) (r' s' : Fin 256), i = ix4 a' b' r' s' :=
    ⟨i 0, i 1, i 2, i 3, eq_ix4 i⟩
  obtain rfl : r' = r := Fin.ext hi2
  obtain rfl : s' = s := Fin.ext hi3
  have ha : a.val = 0 := by have := a.isLt; omega
  have e0 : ix2_0 (ix4 a b r' s') = ix4 a b r' s' := funext fun d => Fin.ext (by
    match d with
    | ⟨0, _⟩ => exact ha.symm
    | ⟨1, _⟩ => rfl
    | ⟨2, _⟩ => rfl
    | ⟨3, _⟩ => rfl)
  have e1 : ix2_1 (ix4 a b r' s') = ix4 0 b 0 0 := funext fun d => Fin.ext (by
    match d with
    | ⟨0, _⟩ => rfl
    | ⟨1, _⟩ => rfl
    | ⟨2, _⟩ => rfl
    | ⟨3, _⟩ => rfl)
  have e2 : ix2_2 (ix4 a b r' s') = ix4 a b r' s' := funext fun d => Fin.ext (by
    match d with
    | ⟨0, _⟩ => exact ha.symm
    | ⟨1, _⟩ => rfl
    | ⟨2, _⟩ => rfl
    | ⟨3, _⟩ => rfl)
  have hP : ∀ (r₁ s₁ : Fin 256), P0 (ix4 a b r₁ s₁) = X (ix4 a' b' r₁ s₁) := fun r₁ s₁ => h0 _ _ hi0 hi1 rfl rfl
  have hA : P1 (ix4 0 b 0 0) = Al (ix4 0 b' 0 0) := h1 _ _ hi1
  have hN : (fun dr ds => ringed (Scalar.sitofp (F := F) .f32 0#32) P0 a b (dr + r'.val) (ds + s'.val))
      = (fun dr ds => ringed (Scalar.sitofp (F := F) .f32 0#32) X a' b' (dr + r'.val) (ds + s'.val)) :=
    funext fun dr => funext fun ds => ringed_congr _ P0 X a b a' b' hP _ _
  rw [stencilMap_ix4]
  show FloatOps.addf (P0 (ix2_0 (ix4 a b r' s'))) (FloatOps.mulf (P1 (ix2_1 (ix4 a b r' s'))) (k0_pay2 P0 (ix2_2 (ix4 a b r' s')))) = _
  rw [e0, e1, e2, pay2_apply, hP, hA, hN]
  rfl

end Cert.KernelIdeal.Block

end
-- ==== Proof.KernelArray.lean ====
/-
  The kernel's result array as one function of its two arguments.

  The grid has a point per batch entry and per group of eight channels; the point's output block is the eight
  whole planes of that batch entry and group, and its two input blocks are the same planes of `x` and the same
  eight entries of `alpha`. What a point writes back is therefore the matching block of the whole map, the blocks
  of the 64 points tile the array, and the array ends holding the map of the arguments.
-/
import proofs.«177111_j12163347382417_2_alg».proof.Proof.Gen.KernelIdeal.Value
import proofs.«177111_j12163347382417_2_alg».proof.Proof.KernelBlock
import Idealize.ShloMosaic.Lib.Pipeline.Value

noncomputable section

open Idealize.ShloMosaic Idealize.ShloMosaic.TcCoe Idealize.SL.Sem Idealize.ShloMosaic.ValueIdx PadStencil
open Idealize.ShloMosaic.Pipeline (Dat)

namespace Cert.KernelIdeal.Whole

open Cert.KernelIdeal Cert.KernelIdeal.Gen Cert.KernelIdeal.Value

variable {F : FTy → Type} [FloatOps F]
variable (m : (ℓ : Loc nD τ sig) → Buf (Elt F) ℓ) (ρ : Dev nD → PrngReg)

theorem offs_zero : (![0, 0, 0, 0] : Fin 4 → Nat) = fun _ => 0 := funext fun a => by fin_cases a <;> rfl

/-- The result array from the two argument arrays: every entry plus its channel's scale times the sum of the
    absolute differences to its nine neighbours in the zero-ringed plane. -/
abbrev result (x : S8x64x256x256.Idx → Elt F .f32) (al : S1x64x1x1.Idx → Elt F .f32) :
    S8x64x256x256.Idx → Elt F .f32 :=
  stencilMap (Scalar.ofBits .f32 0x00000000#32) (Scalar.sitofp .f32 0#32) x al

/-- Where each window's block sits at a grid point: the `x` block and the output block at the same batch entry
    and channel group, whole in the two plane axes; the `alpha` block at the same channel group. -/
theorem block_maps : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = 0 ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0 :=
  (by decide +kernel : ∀ t : Fin grid0.N, _)

/-- Every batch entry and channel group is some point's. -/
theorem block_onto : ∀ (q₀ : Fin 8) (q₁ : Fin 8), ∃ t : Fin cfg0.N, win0_2.index t = ![q₀.val, q₁.val, 0, 0] :=
  (by decide +kernel : ∀ (q₀ : Fin 8) (q₁ : Fin 8), ∃ t : Fin grid0.N, win0_2.index t = ![q₀.val, q₁.val, 0, 0])

/-- What point `t` writes back is block `t` of `result` of the argument arrays. -/
theorem flushed_eq (c : Dev nD) (t : Fin cfg0.N) :
    (dats m 0 c).flushed 2 t
      = ((cfg0.win 2).blk t).view.read (Elt F) (result (V m c main_arg0) (V m c main_arg1)) := by
  rw [flushed2]
  unfold out0_2
  simp only [View.ld_unit_zero (S := S1x8x256x256) offs_zero, View.ld_unit_zero (S := S1x8x1x1) offs_zero]
  obtain ⟨e0, e1, e2, e3, e4, e5, e6, e7, e8, e9⟩ := block_maps t
  funext j
  refine (canon2_eq (iblk m c 0 t) (iblk m c 1 t) j).trans ?_
  have hj0 : (j 0).val < 1 := (j 0).isLt
  refine Block.point_eq (V m c main_arg0) (V m c main_arg1) (iblk m c 0 t) (iblk m c 1 t)
    (win0_2.index t (0 : Fin 4)) (win0_2.index t (1 : Fin 4)) ?_ ?_ j (((cfg0.win 2).blk t).view.emb j) ?_ ?_ ?_ ?_
  · intro y' i' h0 h1 h2 h3
    have hy0 : (y' 0).val < 1 := (y' 0).isLt
    show V m c main_arg0 (((cfg0.win 0).blk t).view.emb y') = V m c main_arg0 i'
    congr 1; funext a; apply Fin.ext
    match a with
    | ⟨0, _⟩ => show win0_0.index t (0 : Fin 4) * 1 + 1 * (y' 0).val = (i' 0).val; omega
    | ⟨1, _⟩ => show win0_0.index t (1 : Fin 4) * 8 + 1 * (y' 1).val = (i' 1).val; omega
    | ⟨2, _⟩ => show win0_0.index t (2 : Fin 4) * 256 + 1 * (y' 2).val = (i' 2).val; omega
    | ⟨3, _⟩ => show win0_0.index t (3 : Fin 4) * 256 + 1 * (y' 3).val = (i' 3).val; omega
  · intro y' i' h1
    have hy0 : (y' 0).val < 1 := (y' 0).isLt
    have hy2 : (y' 2).val < 1 := (y' 2).isLt
    have hy3 : (y' 3).val < 1 := (y' 3).isLt
    have hi0 : (i' 0).val < 1 := (i' 0).isLt
    have hi2 : (i' 2).val < 1 := (i' 2).isLt
    have hi3 : (i' 3).val < 1 := (i' 3).isLt
    show V m c main_arg1 (((cfg0.win 1).blk t).view.emb y') = V m c main_arg1 i'
    congr 1; funext a; apply Fin.ext
    match a with
    | ⟨0, _⟩ => show win0_1.index t (0 : Fin 4) * 1 + 1 * (y' 0).val = (i' 0).val; omega
    | ⟨1, _⟩ => show win0_1.index t (1 : Fin 4) * 8 + 1 * (y' 1).val = (i' 1).val; omega
    | ⟨2, _⟩ => show win0_1.index t (2 : Fin 4) * 1 + 1 * (y' 2).val = (i' 2).val; omega
    | ⟨3, _⟩ => show win0_1.index t (3 : Fin 4) * 1 + 1 * (y' 3).val = (i' 3).val; omega
  · show win0_2.index t (0 : Fin 4) * 1 + 1 * (j 0).val = win0_2.index t (0 : Fin 4); omega
  · show win0_2.index t (1 : Fin 4) * 8 + 1 * (j 1).val = win0_2.index t (1 : Fin 4) * 8 + (j 1).val; omega
  · show win0_2.index t (2 : Fin 4) * 256 + 1 * (j 2).val = (j 2).val; omega
  · show win0_2.index t (3 : Fin 4) * 256 + 1 * (j 3).val = (j 3).val; omega

/-- Every index of the result array is in some point's block: the point of its batch entry and of its channel
    divided by eight. -/
theorem covered (i : S8x64x256x256.Idx) :
    ∃ t : Fin cfg0.N, (cfg0.win 2).flush t = true ∧ i ∈ ((cfg0.win 2).blk t).view.set := by
  have h0 : (i 0).val < 8 := (i 0).isLt
  have h1 : (i 1).val < 64 := (i 1).isLt
  have h2 : (i 2).val < 256 := (i 2).isLt
  have h3 : (i 3).val < 256 := (i 3).isLt
  obtain ⟨t, ht⟩ := block_onto ⟨(i 0).val, h0⟩ ⟨(i 1).val / 8, by omega⟩
  have q0 : win0_2.index t (0 : Fin 4) = (i 0).val := congrFun ht 0
  have q1 : win0_2.index t (1 : Fin 4) = (i 1).val / 8 := congrFun ht 1
  have q2 : win0_2.index t (2 : Fin 4) = 0 := congrFun ht 2
  have q3 : win0_2.index t (3 : Fin 4) = 0 := congrFun ht 3
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- The result array after the run is `result` of the argument arrays as launched. -/
theorem final (c : Dev nD) : (dats m 0 c).arrAt 2 cfg0.N
    = result (m ((c : Thread nD τ).loc main_arg0)) (m ((c : Thread nD τ).loc main_arg1)) :=
  (dats m 0 c).arrAt_eq_of_cover 2 (result (V m c main_arg0) (V m c main_arg1)) (fun t _ => flushed_eq m c t) covered

/-- The run, read: the result array at `result` of the arguments, the arguments unchanged. -/
theorem run : θ_run defs (onTc (τ := τ) (main (F := F))) ⟨m, fun _ => 0, ρ⟩ fun r => ∀ c : Dev nD,
      r.2.mem ((c : Thread nD τ).loc main_v0)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefValue.lean ====
/-
  The reference's result, entry by entry.

  The reference pads `x` by one zero on each side of its two plane axes, takes the nine windows of the padded
  array at offsets (dr, ds), dr, ds = 0, 1, 2, adds up the absolute differences between `x` and each window starting
  from a zero array, multiplies by `alpha` broadcast along its channel axis and adds `x`. At the exact instance the
  host's absolute value is the kernel's, the converted integer zero is the same extended real on both sides, and
  the padded array is the ringed array: the result is the same map of the two arguments, index by index.
-/
import proofs.«177111_j12163347382417_2_alg».proof.Proof.Gen.ReferenceIdeal.Read
import proofs.«177111_j12163347382417_2_alg».proof.Proof.LibPadStencil
import Idealize.ShloMosaic.PureOps.Ideal

noncomputable section

open Idealize.ShloMosaic Idealize.ShloMosaic.ValueIdx PadStencil

namespace Cert.ReferenceIdeal.RefValue

open Cert.ReferenceIdeal Cert.ReferenceIdeal.Gen Cert.ReferenceIdeal.Read

/-- The reference's last stage is the stencil map of its two arguments. -/
theorem result_eq (x0 : S8x64x256x256.Idx → Ideal .f32) (x1 : S1x64x1x1.Idx → Ideal .f32) :
    val_main_v40 (F := Ideal) x0 x1
      = stencilMap (Scalar.ofBits (F := Ideal) .f32 0x00000000#32) (Scalar.sitofp (F := Ideal) .f32 0#32) x0 x1 := by
  funext i
  obtain ⟨a, b, r, s, rfl⟩ : ∃ (a : Fin 8) (b : Fin 64) (r s : Fin 256), i = ix4 a b r s :=
    ⟨i 0, i 1, i 2, i 3, eq_ix4 i⟩
  have hr := r.isLt
  have hs := s.isLt
  rw [stencilMap_ix4]
  -- the padded array is the ringed array
  have hpad : ∀ (R S : Fin 258), val_main_v0 (F := Ideal) x0 (ix4 a b R S)
      = ringed (Scalar.sitofp (F := Ideal) .f32 0#32) x0 a b R.val S.val := by
    intro R S
    unfold val_main_v0
    exact ring_pad_apply (H := 256) (W := 256) rfl rfl x0 _ _ _ a b R S
  -- each window of it, at this entry
  have nb : ∀ (dr ds : Nat) (hdr : dr ≤ 2) (hds : ds ≤ 2) (h : S8x64x258x258.Slices ![0, 0, dr, ds] S8x64x256x256),
      extractStridedSlice S8x64x256x256 ![0, 0, dr, ds] (val_main_v0 (F := Ideal) x0) h (ix4 a b r s)
        = ringed (Scalar.sitofp (F := Ideal) .f32 0#32) x0 a b (dr + r.val) (ds + s.val) := by
    intro dr ds hdr hds h
    refine (slice_apply dr ds _ h a b r s (by omega) (by omega)).trans ?_
    exact hpad _ _
  have n00 : val_main_v2 (F := Ideal) x0 (ix4 a b r s) = _ := nb 0 0 (by omega) (by omega) _
  have n01 : val_main_v6 (F := Ideal) x0 (ix4 a b r s) = _ := nb 0 1 (by omega) (by omega) _
  have n02 : val_main_v10 (F := Ideal) x0 (ix4 a b r s) = _ := nb 0 2 (by omega) (by omega) _
  have n10 : val_main_v14 (F := Ideal) x0 (ix4 a b r s) = _ := nb 1 0 (by omega) (by omega) _
  have n11 : val_main_v18 (F := Ideal) x0 (ix4 a b r s) = _ := nb 1 1 (by omega) (by omega) _
  have n12 : val_main_v22 (F := Ideal) x0 (ix4 a b r s) = _ := nb 1 2 (by omega) (by omega) _
  have n20 : val_main_v26 (F := Ideal) x0 (ix4 a b r s) = _ := nb 2 0 (by omega) (by omega) _
  have n21 : val_main_v30 (F := Ideal) x0 (ix4 a b r s) = _ := nb 2 1 (by omega) (by omega) _
  have n22 : val_main_v34 (F := Ideal) x0 (ix4 a b r s) = _ := nb 2 2 (by omega) (by omega) _
  have hal : idx_main_v38 (ix4 a b r s) = ix4 0 b 0 0 := funext fun d => Fin.ext (by
    match d with
    | ⟨0, _⟩ => rfl
    | ⟨1, _⟩ => rfl
    | ⟨2, _⟩ => rfl
    | ⟨3, _⟩ => rfl)
  simp only [val_main_v40_apply, val_main_v39_apply, val_main_v38_apply, val_main_v37_apply, val_main_v36_apply,
    val_main_v35_apply, val_main_v33_apply, val_main_v32_apply, val_main_v31_apply, val_main_v29_apply,
    val_main_v28_apply, val_main_v27_apply, val_main_v25_apply, val_main_v24_apply, val_main_v23_apply,
    val_main_v21_apply, val_main_v20_apply, val_main_v19_apply, val_main_v17_apply, val_main_v16_apply,
    val_main_v15_apply, val_main_v13_apply, val_main_v12_apply, val_main_v11_apply, val_main_v9_apply,
    val_main_v8_apply, val_main_v7_apply, val_main_v5_apply, val_main_v4_apply, val_main_v3_apply,
    val_main_v1_apply, val_main_cst_apply]
  rw [n00, n01, n02, n10, n11, n12, n20, n21, n22, hal]
  rfl

end Cert.ReferenceIdeal.RefValue

end
-- ==== Proof.lean ====
/-
  A 3×3 absolute-difference stencil with a residual: for `x` of shape [8, 64, 256, 256] and `alpha` of shape
  [1, 64, 1, 1] the result at (n, c, r, s) is

      x(n, c, r, s) + alpha(c) · Σ_{dr, ds ∈ {0, 1, 2}} | x(n, c, r, s) − P(n, c, r + dr, s + ds) |

  where `P` is plane (n, c) of `x` with one ring of zeros around it, so that `P(·, ·, r + 1, s + 1) = x(·, ·, r, s)`,
  and the nine terms are added in reading order starting from zero.

  The kernel works on one batch entry and eight channels at a time (64 grid points, each holding eight whole
  planes, so the ring of a plane lies inside the block) and builds the ring by concatenating a zero row above and
  below and a zero column left and right; the reference pads the whole array by one. Read at an index both are the
  same ringed plane, both take the same nine shifted windows and add the same nine absolute differences in the same
  order, and multiply by the same channel's scale: the two results are one function of the arguments, entry by
  entry, with no algebraic law beyond the agreement of the kernel's and the host's absolute value and of the two
  spellings of zero at the exact instance. Neither side needs the inputs to be finite.

  The modules: `LibPadStencil` (the ringed plane, read out of the four concatenations and out of the pad; a shifted
  window; the nine-term sum; the whole map), `KernelBlock` (what one grid point stores, entry by entry),
  `KernelArray` (the 64 blocks tile the array, so the kernel's result array is the map of its arguments),
  `RefValue` (the reference's last stage is the same map). Below: the three frames, the empty idealization ledger,
  and the two runs set side by side.
-/
import proofs.«177111_j12163347382417_2_alg».proof.Defs
import proofs.«177111_j12163347382417_2_alg».proof.Proof.Gen.Kernel
import proofs.«177111_j12163347382417_2_alg».proof.Proof.Gen.Kernel.Skeleton
import proofs.«177111_j12163347382417_2_alg».proof.Proof.Gen.Kernel.Launch
import proofs.«177111_j12163347382417_2_alg».proof.Proof.Gen.Kernel.Points
import proofs.«177111_j12163347382417_2_alg».proof.Proof.Gen.Kernel.Frame
import proofs.«177111_j12163347382417_2_alg».proof.Proof.Gen.KernelIdeal
import proofs.«177111_j12163347382417_2_alg».proof.Proof.Gen.KernelIdeal.Skeleton
import proofs.«177111_j12163347382417_2_alg».proof.Proof.Gen.KernelIdeal.Launch
import proofs.«177111_j12163347382417_2_alg».proof.Proof.Gen.KernelIdeal.Points
import proofs.«177111_j12163347382417_2_alg».proof.Proof.Gen.KernelIdeal.Frame
import proofs.«177111_j12163347382417_2_alg».proof.Proof.Gen.ReferenceIdeal
import proofs.«177111_j12163347382417_2_alg».proof.Proof.Gen.Pre_finite_inputs
import proofs.«177111_j12163347382417_2_alg».proof.Proof.Gen.KernelIdeal.Value
import proofs.«177111_j12163347382417_2_alg».proof.Proof.Gen.ReferenceIdeal.Run
import proofs.«177111_j12163347382417_2_alg».proof.Proof.Gen.ReferenceIdeal.Read
import proofs.«177111_j12163347382417_2_alg».proof.Proof.KernelArray
import proofs.«177111_j12163347382417_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments alone. -/
theorem frame_kernel : Cert.frame_Kernel := fun m ρ _ => Cert.Kernel.Gen.frame m ρ

/-- So does the kernel read at the exact instance. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the exact instance the kernel's result array ends at the stencil map of its arguments (the 64 blocks tile it)
    and the reference's at its last stage of arguments that agree with the kernel's, which is the same map. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
